-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S2 : Shape := ⟨1, ![2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S8388608x2 .f32) (main_arg1 : FVec F S2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S2 .f32 := Host.absf main_arg1
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S8388608x2 : Shape := ⟨2, ![8388608, 2]⟩
abbrev S2 : Shape := ⟨1, ![2]⟩
abbrev S1048576x2 : Shape := ⟨2, ![1048576, 2]⟩
abbrev S1x2 : Shape := ⟨2, ![1, 2]⟩
abbrev S1048576x1 : Shape := ⟨2, ![1048576, 1]⟩

abbrev nBuf : Space → Nat
  | .hbm => 3
  | .vmem => 5
  | .smem => 0
  | _ => 0

abbrev bufTy : (tb : Table) → Fin (tcTables nBuf tb) → BufTy
  | .hbm, ⟨0, _⟩ => ⟨S8388608x2, .f32⟩
  | .hbm, ⟨1, _⟩ => ⟨S2, .f32⟩
  | .hbm, ⟨2, _⟩ => ⟨S8388608x2, .f32⟩
  | .local _ .vmem, ⟨0, _⟩ => ⟨S1048576x2, .f32⟩
  | .local _ .vmem, ⟨1, _⟩ => ⟨S1048576x2, .f32⟩
  | .local _ .vmem, ⟨2, _⟩ => ⟨S2, .f32⟩
  | .local _ .vmem, ⟨3, _⟩ => ⟨S1048576x2, .f32⟩
  | .local _ .vmem, ⟨4, _⟩ => ⟨S1048576x2, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1048576x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1048576x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1048576x2_S1048576x2_0_0 : ∀ a, (![0, 0] : Fin 2 → Nat) a + S1048576x2.size a ≤ S1048576x2.size a
  h_S1048576x2 : 0 < S1048576x2.numel
  inb_S2_S2_0 : ∀ a, (![0] : Fin 1 → Nat) a + S2.size a ≤ S2.size a
  h_S2 : 0 < S2.numel
  shapeCasts_S2_S1x2 : S2.ShapeCasts S1x2
  broadcasts_S1x2_S1048576x2 : S1x2.Broadcasts S1048576x2
  slices_S1048576x2_o0_0_S1048576x1 : S1048576x2.Slices ![0, 0] S1048576x1
  slices_S1048576x2_o0_1_S1048576x1 : S1048576x2.Slices ![0, 1] S1048576x1
  concatenates_S1048576x1_S1048576x1_S1048576x2_d1 : Shape.Concatenates [S1048576x1, S1048576x1] S1048576x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1048576x2.size a ≤ S8388608x2.size a
  hwx0_0 : ∀ i : grid0.Coords, EltTy.bits .f32 = 32 ∨ (Rect.block (s := S8388608x2) S1048576x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2.size a ≤ S2.size a
  hwx0_1 : ∀ i : grid0.Coords, EltTy.bits .f32 = 32 ∨ (Rect.block (s := S2) S2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1048576x2.size a ≤ S8388608x2.size a
  hwx0_2 : ∀ i : grid0.Coords, EltTy.bits .f32 = 32 ∨ (Rect.block (s := S8388608x2) S1048576x2.size (cc0_transform_2 i) (hinb0_2 i)).WholeWords (EltTy.packing .f32)

variable [Facts₀]

abbrev win0_0 : Pipeline.Window sig grid0 :=
  Pipeline.Window.ofSpec (Memref.whole main_arg0) S1048576x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1048576x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S2 : Shape := ⟨1, ![2]⟩
abbrev S1x2 : Shape := ⟨2, ![1, 2]⟩
abbrev S8388608x1 : Shape := ⟨2, ![8388608, 1]⟩
abbrev S8388608 : Shape := ⟨1, ![8388608]⟩

abbrev nBuf : Space → Nat
  | .hbm => 16
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S2, .f32⟩
  | .hbm, ⟨2, _⟩ => ⟨S1x2, .f32⟩
  | .hbm, ⟨3, _⟩ => ⟨S8388608x2, .f32⟩
  | .hbm, ⟨4, _⟩ => ⟨S8388608x2, .f32⟩
  | .hbm, ⟨5, _⟩ => ⟨S8388608x2, .f32⟩
  | .hbm, ⟨6, _⟩ => ⟨S8388608x1, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608x1, .f32⟩
  | .hbm, ⟨11, _⟩ => ⟨S8388608, .f32⟩
  | .hbm, ⟨12, _⟩ => ⟨S8388608, .f32⟩
  | .hbm, ⟨13, _⟩ => ⟨S8388608x1, .f32⟩
  | .hbm, ⟨14, _⟩ => ⟨S8388608x1, .f32⟩
  | .hbm, ⟨15, _⟩ => ⟨S8388608x2, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1

variable [Facts₀]

class Facts : Prop extends Facts₀ where

variable [Facts]
-- ==== Proof.Spec.lean ====
/-
  The two measured expectations of one sample, as a function of the argument arrays.

  A sample is a row `r` of `x` (two angles); `w` holds one offset per qubit. The angle of qubit `q` is
  `θ_q = x[r, q] + w[q]`, and the row of the result is
      ⟨Z₀⟩ = cos θ₀,        ⟨Z₁⟩ = cos θ₀ · cos θ₁
  on the extended reals (`cos` of an infinity is the library's convention; both programs use the same one).
  Everything is stated for an array of any number `n` of rows, so that the same function describes one block
  of rows and the whole array, and a block of the whole array's result is the result of that block of rows.
-/
import Idealize.ShloMosaic.PureOps.Ideal
import Idealize.ShloMosaic.Lib.ValueIdx

noncomputable section

namespace Cert.ZExpect

open Idealize.ShloMosaic Idealize.ShloMosaic.ValueIdx

/-- The angle of qubit `q` in sample `r`: the sample's entry plus the qubit's offset. -/
def angle {n : Nat} (x : (⟨2, ![n, 2]⟩ : Shape).Idx → EReal) (w : (⟨1, ![2]⟩ : Shape).Idx → EReal)
    (r : Fin n) (q : Fin 2) : EReal :=
  x (ix2 r q) + w (ix1 q)

/-- Entry `q` of sample `r`'s result: `cos θ₀` in column 0, `cos θ₀ · cos θ₁` in column 1. -/
def zPair {n : Nat} (x : (⟨2, ![n, 2]⟩ : Shape).Idx → EReal) (w : (⟨1, ![2]⟩ : Shape).Idx → EReal)
    (r : Fin n) (q : Fin 2) : EReal :=
  if q.val = 0 then Ideal.cos (angle x w r 0) else Ideal.cos (angle x w r 0) * Ideal.cos (angle x w r 1)

/-- The whole result, index by index. -/
def expectations {n : Nat} (x : (⟨2, ![n, 2]⟩ : Shape).Idx → EReal) (w : (⟨1, ![2]⟩ : Shape).Idx → EReal) :
    (⟨2, ![n, 2]⟩ : Shape).Idx → EReal :=
  fun i => zPair x w (i 0) (i 1)

theorem expectations_ix2 {n : Nat} (x : (⟨2, ![n, 2]⟩ : Shape).Idx → EReal) (w : (⟨1, ![2]⟩ : Shape).Idx → EReal)
    (r : Fin n) (q : Fin 2) : expectations x w (ix2 r q) = zPair x w r q := rfl

theorem zPair_zero {n : Nat} (x : (⟨2, ![n, 2]⟩ : Shape).Idx → EReal) (w : (⟨1, ![2]⟩ : Shape).Idx → EReal)
    (r : Fin n) : zPair x w r 0 = Ideal.cos (angle x w r 0) := if_pos rfl

theorem zPair_one {n : Nat} (x : (⟨2, ![n, 2]⟩ : Shape).Idx → EReal) (w : (⟨1, ![2]⟩ : Shape).Idx → EReal)
    (r : Fin n) : zPair x w r 1 = Ideal.cos (angle x w r 0) * Ideal.cos (angle x w r 1) := if_neg (by decide)

/-- A row of the result depends on that row of `x` alone: if row `r` of `xb` is row `R` of `X` (and the offsets
    agree), row `r` of the result of `xb` is row `R` of the result of `X`. -/
theorem zPair_of_row {n N : Nat} (xb : (⟨2, ![n, 2]⟩ : Shape).Idx → EReal) (wb : (⟨1, ![2]⟩ : Shape).Idx → EReal)
    (X : (⟨2, ![N, 2]⟩ : Shape).Idx → EReal) (W : (⟨1, ![2]⟩ : Shape).Idx → EReal) (r : Fin n) (R : Fin N)
    (hx : ∀ q, xb (ix2 r q) = X (ix2 R q)) (hw : ∀ q, wb (ix1 q) = W (ix1 q)) (q : Fin 2) :
    zPair xb wb r q = zPair X W R q := by
  unfold zPair angle
  simp only [hx, hw]

end Cert.ZExpect

end
-- ==== Proof.BlockIsSpec.lean ====
/-
  One grid point's block is `expectations` of the point's block of rows.

  The body adds the offsets (a length-2 vector recast as one row and repeated down the block's rows) to its
  block of `x`, takes the cosine of every entry, cuts column 0 (twice) and column 1 as columns, multiplies the
  second copy of column 0 by column 1, and joins `cos θ₀` and the product as the two columns it stores. Read
  at the entry `(p, q)` of the block: the join takes column `q` from operand `q` at row `p`; each operand at row
  `p` is the cosine block at `(p, 0)` or `(p, 1)`; and the cosine block at `(p, q)` is `cos (x[p, q] + w[q])`.
-/
import proofs.«176409_j3642132267809_1_alg».proof.Proof.Gen.KernelIdeal.Value
import proofs.«176409_j3642132267809_1_alg».proof.Proof.Spec

noncomputable section

namespace Cert.KernelIdeal.BlockValue

open Cert.KernelIdeal Cert.KernelIdeal.Gen Cert.KernelIdeal.Value
open Idealize.ShloMosaic Idealize.ShloMosaic.ValueIdx Cert.ZExpect

/-- The offsets, recast as one row and repeated down the rows, hold `w[q]` at `(p, q)`. -/
theorem offsets_at (P1 : FVec Ideal S2 .f32) (p : Fin 1048576) (q : Fin 2) :
    broadcastTo S1048576x2 (shapeCast S1x2 P1 shapeCasts_S2_S1x2) broadcasts_S1x2_S1048576x2 (ix2 p q) = P1 (ix1 q) := by
  refine (broadcastTo_apply _ broadcasts_S1x2_S1048576x2 (ix2 p q) (ix2 (0 : Fin 1) q) (fun a => by
    match a with
    | ⟨0, _⟩ => show 0 = if (1 : Nat) = 1 then 0 else _; rw [if_pos rfl]
    | ⟨1, _⟩ => show q.val = if (2 : Nat) = 1 then 0 else q.val; rw [if_neg (by decide)])).trans ?_
  exact shapeCast_apply P1 shapeCasts_S2_S1x2 (ix2 (0 : Fin 1) q) (ix1 q)
    (by rewrite [Shape.rowMajor_val_one, Shape.rowMajor_val_two]; show q.val = 0 * 2 + q.val; omega)

/-- The cosine block at `(p, q)` is the cosine of qubit `q`'s angle in row `p` of the block. -/
theorem cosine_at (P0 : FVec Ideal S1048576x2 .f32) (P1 : FVec Ideal S2 .f32) (p : Fin 1048576) (q : Fin 2) :
    cos (F := Ideal) (φ := .f32) (addf P0 (broadcastTo S1048576x2 (shapeCast S1x2 P1 shapeCasts_S2_S1x2) broadcasts_S1x2_S1048576x2)) (ix2 p q)
      = Ideal.cos (angle P0 P1 p q) := by
  show Ideal.cos (P0 (ix2 p q) + broadcastTo S1048576x2 (shapeCast S1x2 P1 shapeCasts_S2_S1x2) broadcasts_S1x2_S1048576x2 (ix2 p q)) = _
  rw [offsets_at]
  rfl

/-- Column `q₀` of the cosine block, cut out as a column, at row `p`. -/
theorem column_at (C : FVec Ideal S1048576x2 .f32) (p : Fin 1048576) :
    extractStridedSlice S1048576x1 ![0, 0] C slices_S1048576x2_o0_0_S1048576x1 (ix2 p (0 : Fin 1)) = C (ix2 p (0 : Fin 2))
    ∧ extractStridedSlice S1048576x1 ![0, 1] C slices_S1048576x2_o0_1_S1048576x1 (ix2 p (0 : Fin 1)) = C (ix2 p (1 : Fin 2)) :=
  ⟨extractStridedSlice_apply ![0, 0] C slices_S1048576x2_o0_0_S1048576x1 (ix2 p (0 : Fin 1)) (ix2 p (0 : Fin 2)) (fun a => by
      match a with
      | ⟨0, _⟩ => show p.val = 0 + p.val; omega
      | ⟨1, _⟩ => rfl),
   extractStridedSlice_apply ![0, 1] C slices_S1048576x2_o0_1_S1048576x1 (ix2 p (0 : Fin 1)) (ix2 p (1 : Fin 2)) (fun a => by
      match a with
      | ⟨0, _⟩ => show p.val = 0 + p.val; omega
      | ⟨1, _⟩ => rfl)⟩

/-- What the body's stores leave in the output block (the generated `E2` of the loaded blocks) is
    `expectations` of the loaded blocks. -/
theorem block_eq (P0 : Vec Ideal S1048576x2 .f32) (P1 : Vec Ideal S2 .f32) :
    E2 (F := Ideal) P0 P1 = expectations P0 P1 := by
  funext y
  obtain ⟨p, q, rfl⟩ : ∃ (p : Fin 1048576) (q : Fin 2), y = ix2 p q := ⟨y 0, y 1, eq_ix2 y⟩
  rw [expectations_ix2]
  have hix : ix2_0 (ix2 p q) = ix2 p (0 : Fin 1) :=
    funext fun a => Fin.ext (by match a with | ⟨0, _⟩ => rfl | ⟨1, _⟩ => rfl)
  show (Cat2_0 (F := Ideal) P0 P1 (csel2_0 (ix2 p q))) (ix2_0 (ix2 p q)) = _
  rw [hix]
  match q with
  | ⟨0, _⟩ =>
    show extractStridedSlice S1048576x1 ![0, 0] (cos (F := Ideal) (φ := .f32) (addf P0 (broadcastTo S1048576x2 (shapeCast S1x2 P1 shapeCasts_S2_S1x2) broadcasts_S1x2_S1048576x2))) slices_S1048576x2_o0_0_S1048576x1 (ix2 p (0 : Fin 1)) = _
    rw [(column_at _ p).1, cosine_at]
    exact (zPair_zero P0 P1 p).symm
  | ⟨1, _⟩ =>
    show extractStridedSlice S1048576x1 ![0, 0] (cos (F := Ideal) (φ := .f32) (addf P0 (broadcastTo S1048576x2 (shapeCast S1x2 P1 shapeCasts_S2_S1x2) broadcasts_S1x2_S1048576x2))) slices_S1048576x2_o0_0_S1048576x1 (ix2 p (0 : Fin 1))
        * extractStridedSlice S1048576x1 ![0, 1] (cos (F := Ideal) (φ := .f32) (addf P0 (broadcastTo S1048576x2 (shapeCast S1x2 P1 shapeCasts_S2_S1x2) broadcasts_S1x2_S1048576x2))) slices_S1048576x2_o0_1_S1048576x1 (ix2 p (0 : Fin 1)) = _
    rw [(column_at _ p).1, (column_at _ p).2, cosine_at, cosine_at]
    exact (zPair_one P0 P1 p).symm

theorem zeros2 : (![0, 0] : Fin 2 → Nat) = fun _ => 0 := funext fun a => by fin_cases a <;> rfl
theorem zeros1 : (![0] : Fin 1 → Nat) = fun _ => 0 := funext fun a => by fin_cases a <;> rfl

/-- The output staging buffer after the body, as a function of the two input blocks: the body loads both blocks
    whole and stores once over the whole output block, so the buffer holds `expectations` of the input blocks. -/
theorem body_result (x0 : Vec Ideal S1048576x2 .f32) (x1 : Vec Ideal S2 .f32) :
    out0_2 (F := Ideal) x0 x1 = expectations x0 x1 := by
  unfold out0_2
  rw [View.ld_unit_zero (S := S1048576x2) zeros2, View.ld_unit_zero (S := S2) zeros1]
  funext y
  rw [canon2_eq, block_eq]

end Cert.KernelIdeal.BlockValue

end
-- ==== Proof.KernelArray.lean ====
/-
  The whole output array after the run is `expectations` of the two argument arrays.

  The grid has 8 points. Point `t` stages rows `t·2²⁰ … (t+1)·2²⁰ − 1` of `x` (both columns), the whole of `w`, and
  writes back the same rows of the result. So row `p` of point `t`'s block is row `t·2²⁰ + p` of the array; the
  block the point writes back is `expectations` of its rows, which — a row of the result depending on that row
  of `x` alone — is that block of `expectations` of the whole array; and the 8 blocks cover every row (row `r`
  lies in the block of point `r / 2²⁰`).
-/
import proofs.«176409_j3642132267809_1_alg».proof.Proof.BlockIsSpec

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.ZExpect
open Idealize.ShloMosaic.Pipeline (Dat)

variable (m : (ℓ : Loc nD τ sig) → Buf (Elt Ideal) ℓ) (ρ : Dev nD → PrngReg)

/-- The printed index maps over the 8 grid points: the block of `x` and the block of the result sit at block-row
    `t`, block-column 0; the block of `w` is always block 0. -/
theorem index_facts : ∀ t : Fin cfg0.N, win0_0.index t (0 : Fin 2) = t.val
    ∧ win0_0.index t (1 : Fin 2) = 0
    ∧ win0_1.index t (0 : Fin 1) = 0
    ∧ win0_2.index t (0 : Fin 2) = t.val
    ∧ win0_2.index t (1 : Fin 2) = 0 :=
  (by decide +kernel : ∀ t : Fin grid0.N, _)

theorem point_lt (t : Fin cfg0.N) : t.val < 8 := by
  have h := t.isLt
  have h8 : cfg0.N = 8 := N_0
  omega

/-- Row `p` of point `t`'s block is row `t·2²⁰ + p` of the array. -/
def rowOf (t : Fin cfg0.N) (p : Fin 1048576) : Fin 8388608 :=
  ⟨t.val * 1048576 + p.val, by have := point_lt t; omega⟩

/-- The staged block of `x` at point `t`, entry `(p, q)`, is the array's entry `(t·2²⁰ + p, q)`. -/
theorem rows_block (c : Dev nD) (t : Fin cfg0.N) (p : Fin 1048576) (q : Fin 2) :
    iblk m c 0 t (ix2 p q) = V m c main_arg0 (ix2 (rowOf t p) q) := by
  obtain ⟨e0, e1, -, -, -⟩ := index_facts t
  show V m c main_arg0 (((cfg0.win 0).blk t).view.emb (ix2 p q)) = V m c main_arg0 (ix2 (rowOf t p) q)
  refine congrArg (V m c main_arg0) (funext fun a => Fin.ext ?_)
  match a with
  | ⟨0, _⟩ => show win0_0.index t (0 : Fin 2) * 1048576 + 1 * p.val = t.val * 1048576 + p.val; omega
  | ⟨1, _⟩ => show win0_0.index t (1 : Fin 2) * 2 + 1 * q.val = q.val; omega

/-- The staged block of `w` is `w`. -/
theorem offsets_block (c : Dev nD) (t : Fin cfg0.N) (q : Fin 2) :
    iblk m c 1 t (ix1 q) = V m c main_arg1 (ix1 q) := by
  obtain ⟨-, -, e2, -, -⟩ := index_facts t
  show V m c main_arg1 (((cfg0.win 1).blk t).view.emb (ix1 q)) = V m c main_arg1 (ix1 q)
  refine congrArg (V m c main_arg1) (funext fun a => Fin.ext ?_)
  match a with
  | ⟨0, _⟩ => show win0_1.index t (0 : Fin 1) * 2 + 1 * q.val = q.val; omega

/-- What point `t` writes back is block `t` of `expectations` of the argument arrays. -/
theorem flushed_eq (c : Dev nD) (t : Fin cfg0.N) :
    (dats m 0 c).flushed 2 t
      = ((cfg0.win 2).blk t).view.read (Elt Ideal) (expectations (n := 8388608) (V m c main_arg0) (V m c main_arg1)) := by
  show (cfg0.win 2).cut (grid0.coords t) ((dats m 0 c).after 2 t) = _
  rw [after0_2]
  refine (congrArg ((cfg0.win 2).cut (grid0.coords t)) (body_result (iblk m c 0 t) (iblk m c 1 t))).trans ?_
  obtain ⟨-, -, -, e3, e4⟩ := index_facts t
  funext j
  have hp : (j 0).val < 1048576 := (j 0).isLt
  have hq : (j 1).val < 2 := (j 1).isLt
  have hi : (((cfg0.win 2).blk t).view.emb j : (⟨2, ![8388608, 2]⟩ : Shape).Idx)
      = ix2 (rowOf t ⟨(j 0).val, hp⟩) (⟨(j 1).val, hq⟩ : Fin 2) :=
    funext fun a => Fin.ext (by
      match a with
      | ⟨0, _⟩ => show win0_2.index t (0 : Fin 2) * 1048576 + 1 * (j 0).val = t.val * 1048576 + (j 0).val; omega
      | ⟨1, _⟩ => show win0_2.index t (1 : Fin 2) * 2 + 1 * (j 1).val = (j 1).val; omega)
  show zPair (n := 1048576) (iblk m c 0 t) (iblk m c 1 t) ⟨(j 0).val, hp⟩ ⟨(j 1).val, hq⟩
    = expectations (n := 8388608) (V m c main_arg0) (V m c main_arg1) (((cfg0.win 2).blk t).view.emb j)
  refine Eq.trans ?_ (congrArg (expectations (n := 8388608) (V m c main_arg0) (V m c main_arg1)) hi).symm
  exact zPair_of_row (n := 1048576) (N := 8388608) (iblk m c 0 t) (iblk m c 1 t) (V m c main_arg0) (V m c main_arg1)
    ⟨(j 0).val, hp⟩ (rowOf t ⟨(j 0).val, hp⟩) (fun q => rows_block m c t _ q) (fun q => offsets_block m c t q) _

/-- An index of the array is in point `t`'s block iff each coordinate is in the block's range on its axis. -/
theorem mem_block (t : Fin cfg0.N) (i : S8388608x2.Idx) :
    i ∈ ((cfg0.win 2).blk t).view.set ↔ ∀ a : Fin 2, win0_2.index t a * S1048576x2.size a ≤ (i a).val
      ∧ (i a).val < win0_2.index t a * S1048576x2.size a + S1048576x2.size a := by
  show i ∈ ((View.whole main_v0).slice (win0_2.rect t)).set ↔ _
  rw [View.set_slice_whole, Rect.mem_set_unit]
  exact Iff.rfl

/-- Every entry of the array is in some point's block: row `r` in the block of point `r / 2²⁰`. -/
theorem covered (i : S8388608x2.Idx) :
    ∃ t : Fin cfg0.N, (cfg0.win 2).flush t = true ∧ i ∈ ((cfg0.win 2).blk t).view.set := by
  have hi0 : (i 0).val < 8388608 := (i 0).isLt
  have hi1 : (i 1).val < 2 := (i 1).isLt
  have hN : cfg0.N = 8 := N_0
  have ht : (i 0).val / 1048576 < cfg0.N := by omega
  obtain ⟨-, -, -, e3, e4⟩ := index_facts ⟨(i 0).val / 1048576, ht⟩
  have e3' : win0_2.index ⟨(i 0).val / 1048576, ht⟩ (0 : Fin 2) = (i 0).val / 1048576 := e3
  refine ⟨⟨(i 0).val / 1048576, ht⟩, flush0_2 _, ?_⟩
  rw [mem_block]
  intro a
  match a with
  | ⟨0, _⟩ =>
    show win0_2.index ⟨(i 0).val / 1048576, ht⟩ (0 : Fin 2) * 1048576 ≤ (i 0).val
      ∧ (i 0).val < win0_2.index ⟨(i 0).val / 1048576, ht⟩ (0 : Fin 2) * 1048576 + 1048576
    omega
  | ⟨1, _⟩ =>
    show win0_2.index ⟨(i 0).val / 1048576, ht⟩ (1 : Fin 2) * 2 ≤ (i 1).val
      ∧ (i 1).val < win0_2.index ⟨(i 0).val / 1048576, ht⟩ (1 : Fin 2) * 2 + 2
    omega

/-- The output array after the last point. -/
theorem final (c : Dev nD) :
    (dats m 0 c).arrAt 2 cfg0.N
      = expectations (n := 8388608) (m ((c : Thread nD τ).loc main_arg0)) (m ((c : Thread nD τ).loc main_arg1)) :=
  (dats m 0 c).arrAt_eq_of_cover 2 (expectations (n := 8388608) (V m c main_arg0) (V m c main_arg1))
    (fun t _ => flushed_eq m c t) covered

/-- The kernel's run: the result array ends at `expectations` of the arguments, the arguments unchanged. -/
theorem run : θ_run defs (onTc (τ := τ) (main (F := Ideal))) ⟨m, fun _ => 0, ρ⟩ fun r => ∀ c : Dev nD,
      r.2.mem ((c : Thread nD τ).loc main_v0)
        = expectations (n := 8388608) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefIsSpec.lean ====
/-
  The reference computes `expectations`.

  Its program adds the offsets (broadcast over the rows), takes the cosine of every entry, cuts out column 0
  (twice) and column 1 as vectors of length 8388608, multiplies the second copy of column 0 by column 1, and
  joins `cos θ₀` and the product as the two columns of the result. Read at the entry `(r, q)`: the joined array
  takes its column `q` from operand `q` at row `r`; each operand at row `r` goes back, through the casts and
  slices, to the cosine array at `(r, 0)` or `(r, 1)`; and the cosine array at `(r, q)` is `cos (x[r, q] + w[q])`.
-/
import proofs.«176409_j3642132267809_1_alg».proof.Proof.Gen.ReferenceIdeal.Read
import proofs.«176409_j3642132267809_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.ZExpect

/-- The cosine array at `(r, q)` is the cosine of qubit `q`'s angle in sample `r`: the offsets are broadcast
    along the rows, so the entry added at `(r, q)` is `w[q]`. -/
theorem cosine_at (x0 : (⟨S8388608x2, .f32⟩ : BufTy).Contents (Elt Ideal)) (x1 : (⟨S2, .f32⟩ : BufTy).Contents (Elt Ideal))
    (r : Fin 8388608) (q : Fin 2) :
    val_main_v3 (F := Ideal) x0 x1 (ix2 r q) = Ideal.cos (angle x0 x1 r q) := by
  rw [val_main_v3_apply, val_main_v2_apply, val_main_v1_apply, val_main_v0_apply]
  have e : idx_main_v0 (idx_main_v1 (ix2 r q)) = ix1 q :=
    funext fun a => Fin.ext (by match a with | ⟨0, _⟩ => rfl)
  rw [e]
  rfl

/-- Column 0 of the result at row `r`: the first copy of the cosine array's column 0, cast to a vector and back
    to a column. -/
theorem first_column_at (x0 : (⟨S8388608x2, .f32⟩ : BufTy).Contents (Elt Ideal)) (x1 : (⟨S2, .f32⟩ : BufTy).Contents (Elt Ideal))
    (r : Fin 8388608) :
    val_main_v11 (F := Ideal) x0 x1 (ix2 r (0 : Fin 1)) = Ideal.cos (angle x0 x1 r 0) := by
  rw [val_main_v11_apply, val_main_v5_apply, val_main_v4_apply]
  have e : idx_main_v4 (idx_main_v5 (idx_main_v11 (ix2 r (0 : Fin 1)))) = ix2 r (0 : Fin 2) :=
    funext fun a => Fin.ext (by
      match a with
      | ⟨0, _⟩ => exact Nat.div_one r.val
      | ⟨1, _⟩ => rfl)
  rw [e, cosine_at]

/-- Column 1 of the result at row `r`: the product of the second copy of column 0 and of column 1 of the cosine
    array, both at row `r`. -/
theorem second_column_at (x0 : (⟨S8388608x2, .f32⟩ : BufTy).Contents (Elt Ideal)) (x1 : (⟨S2, .f32⟩ : BufTy).Contents (Elt Ideal))
    (r : Fin 8388608) :
    val_main_v12 (F := Ideal) x0 x1 (ix2 r (0 : Fin 1)) = Ideal.cos (angle x0 x1 r 0) * Ideal.cos (angle x0 x1 r 1) := by
  rw [val_main_v12_apply, val_main_v10_apply, val_main_v7_apply, val_main_v9_apply, val_main_v6_apply, val_main_v8_apply]
  have e0 : idx_main_v6 (idx_main_v7 (idx_main_v12 (ix2 r (0 : Fin 1)))) = ix2 r (0 : Fin 2) :=
    funext fun a => Fin.ext (by
      match a with
      | ⟨0, _⟩ => exact Nat.div_one r.val
      | ⟨1, _⟩ => rfl)
  have e1 : idx_main_v8 (idx_main_v9 (idx_main_v12 (ix2 r (0 : Fin 1)))) = ix2 r (1 : Fin 2) :=
    funext fun a => Fin.ext (by
      match a with
      | ⟨0, _⟩ => exact Nat.div_one r.val
      | ⟨1, _⟩ => rfl)
  rw [e0, e1, cosine_at, cosine_at]
  rfl

/-- The two operands of the final join, by their number. -/
abbrev columns (x0 : (⟨S8388608x2, .f32⟩ : BufTy).Contents (Elt Ideal)) (x1 : (⟨S2, .f32⟩ : BufTy).Contents (Elt Ideal)) :
    Fin 2 → (S8388608x1.Idx → EReal) := fun n =>
  match n with
  | ⟨0, _⟩ => val_main_v11 (F := Ideal) x0 x1
  | ⟨1, _⟩ => val_main_v12 (F := Ideal) x0 x1

/-- The reference's result is `expectations` of its arguments: the join along the columns reads operand `q` at
    row `r` for the entry `(r, q)`. -/
theorem result_eq (x0 : (⟨S8388608x2, .f32⟩ : BufTy).Contents (Elt Ideal)) (x1 : (⟨S2, .f32⟩ : BufTy).Contents (Elt Ideal)) :
    val_main_v13 (F := Ideal) x0 x1 = expectations x0 x1 := by
  funext i
  obtain ⟨r, q, rfl⟩ : ∃ (r : Fin 8388608) (q : Fin 2), i = ix2 r q := ⟨i 0, i 1, eq_ix2 i⟩
  rw [expectations_ix2]
  unfold val_main_v13
  show concatenate S8388608x2 1 (List.ofFn fun n : Fin 2 => (⟨S8388608x1, columns x0 x1 n⟩ : (s : Shape) × (s.Idx → _))) _ (ix2 r q) = _
  refine (concatenate_ofFn_apply (t := S8388608x2) (s₁ := S8388608x1) (1 : Fin 2) (columns x0 x1) _ rfl 1 rfl (ix2 r q) q
    (Nat.div_one q.val) (ix2 r (0 : Fin 1)) (by show 0 = q.val % 1; omega)
    (fun b hb => by match b with | ⟨0, _⟩ => rfl | ⟨1, _⟩ => exact absurd rfl hb)).trans ?_
  match q with
  | ⟨0, _⟩ => exact (first_column_at x0 x1 r).trans (zPair_zero x0 x1 r).symm
  | ⟨1, _⟩ => exact (second_column_at x0 x1 r).trans (zPair_one x0 x1 r).symm

end Cert.ReferenceIdeal.RefValue

end
-- ==== Proof.lean ====
/-
  The certificate of the two-qubit expectation layer.

  For every sample (a row `r` of `x`, two angles) and offsets `w`, with `θ_q = x[r, q] + w[q]`, both programs
  return the row `(cos θ₀, cos θ₀ · cos θ₁)`: the kernel block by block over 8 blocks of 2²⁰ rows, the
  reference on the whole array at once. At the ideal instance the kernel's cosine and the host's cosine are
  one function of the extended reals, sums and products are the extended reals', and neither program holds a
  literal, so the two results are the same expression of the arguments index by index; no algebraic law is
  needed and the finiteness of the inputs is never used.

  `Spec` states that expression (`expectations`); `RefIsSpec` reads the reference's host operations at an
  index and finds it; `BlockIsSpec` reads the kernel body's operations at an index of a block and finds it
  for the block's rows; `KernelArray` places the 8 written-back blocks in the result array. Here the five
  claims are assembled: the three frames are the generated runs, the idealization rewrote nothing, and the
  two runs end at the same function of agreeing arguments.
-/
import proofs.«176409_j3642132267809_1_alg».proof.Defs
import proofs.«176409_j3642132267809_1_alg».proof.Proof.Gen.Kernel
import proofs.«176409_j3642132267809_1_alg».proof.Proof.Gen.Kernel.Skeleton
import proofs.«176409_j3642132267809_1_alg».proof.Proof.Gen.Kernel.Launch
import proofs.«176409_j3642132267809_1_alg».proof.Proof.Gen.Kernel.Points
import proofs.«176409_j3642132267809_1_alg».proof.Proof.Gen.Kernel.Frame
import proofs.«176409_j3642132267809_1_alg».proof.Proof.Gen.KernelIdeal
import proofs.«176409_j3642132267809_1_alg».proof.Proof.Gen.KernelIdeal.Skeleton
import proofs.«176409_j3642132267809_1_alg».proof.Proof.Gen.KernelIdeal.Launch
import proofs.«176409_j3642132267809_1_alg».proof.Proof.Gen.KernelIdeal.Points
import proofs.«176409_j3642132267809_1_alg».proof.Proof.Gen.KernelIdeal.Frame
import proofs.«176409_j3642132267809_1_alg».proof.Proof.Gen.ReferenceIdeal
import proofs.«176409_j3642132267809_1_alg».proof.Proof.Gen.Pre_finite_inputs
import proofs.«176409_j3642132267809_1_alg».proof.Proof.Gen.KernelIdeal.Value
import proofs.«176409_j3642132267809_1_alg».proof.Proof.Gen.ReferenceIdeal.Run
import proofs.«176409_j3642132267809_1_alg».proof.Proof.Gen.ReferenceIdeal.Read
import proofs.«176409_j3642132267809_1_alg».proof.Proof.KernelArray
import proofs.«176409_j3642132267809_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both runs end with the result array at `expectations` of the arguments, and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
